-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S100000x64 : Shape := ⟨2, ![100000, 64]⟩
abbrev S512x64 : Shape := ⟨2, ![512, 64]⟩
abbrev S64x512 : Shape := ⟨2, ![64, 512]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000x64 : S_.BroadcastsInDim S100000x64 (![] : Fin 0 → Fin S100000x64.rank)
  reducesTo_S100000x64_S_d0_1 : S100000x64.ReducesTo [0, 1] S_
  bcast_S_S512x64 : S_.BroadcastsInDim S512x64 (![] : Fin 0 → Fin S512x64.rank)
  reducesTo_S512x64_S_d0_1 : S512x64.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x512 .f32) (main_arg7 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64x512 .f32 := Host.absf main_arg6
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x512 .f32) (main_arg1 : IVec S1600000 32) (main_arg2 : IVec S1600000 32) (main_arg3 : FVec F S1600000 .f32) (main_arg4 : FVec F S100000x64 .f32) (main_arg5 : FVec F S512x64 .f32) (main_arg6 : FVec F S64x512 .f32) (main_arg7 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S512x64 .f32 := Host.absf main_arg5
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg6 main_arg7 main_v13 main_v16
-- ==== Kernel.lean ====
abbrev S100000x512 : Shape := ⟨2, ![100000, 512]⟩
abbrev S1600000 : Shape := ⟨1, ![1600000]⟩
abbrev S100000x64 : Shape := ⟨2, ![100000, 64]⟩
abbrev S512x64 : Shape := ⟨2, ![512, 64]⟩
abbrev S64x512 : Shape := ⟨2, ![64, 512]⟩
abbrev S64 : Shape := ⟨1, ![64]⟩
abbrev S512x128 : Shape := ⟨2, ![512, 128]⟩
abbrev S4000x512 : Shape := ⟨2, ![4000, 512]⟩
abbrev S4000x64 : Shape := ⟨2, ![4000, 64]⟩
abbrev S4000x128 : Shape := ⟨2, ![4000, 128]⟩
abbrev S_ : Shape := ⟨0, ![]⟩
abbrev S1600000x1 : Shape := ⟨2, ![1600000, 1]⟩
abbrev S1600000x64 : Shape := ⟨2, ![1600000, 64]⟩
abbrev S50000x128 : Shape := ⟨2, ![50000, 128]⟩
abbrev S128 : Shape := ⟨1, ![128]⟩
abbrev S1x128 : Shape := ⟨2, ![1, 128]⟩
abbrev S2000x128 : Shape := ⟨2, ![2000, 128]⟩

abbrev nBuf : Space → Nat
  | .hbm => 37
  | .vmem => 18
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x64, .f32⟩
  | .hbm, ⟨5, _⟩ => ⟨S512x64, .f32⟩
  | .hbm, ⟨6, _⟩ => ⟨S64x512, .f32⟩
  | .hbm, ⟨7, _⟩ => ⟨S64, .f32⟩
  | .hbm, ⟨8, _⟩ => ⟨S512x64, .f32⟩
  | .hbm, ⟨9, _⟩ => ⟨S512x128, .f32⟩
  | .hbm, ⟨10, _⟩ => ⟨S100000x64, .f32⟩
  | .hbm, ⟨11, _⟩ => ⟨S100000x64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S100000x64, .f32⟩
  | .hbm, ⟨36, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S64x512_S512x64_1_0 : S64x512.Transposes [1, 0] S512x64
  concatenates_S512x64_S512x64_S512x128_d1 : Shape.Concatenates [S512x64, S512x64] S512x128 1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S4000x128_o0_0_S4000x64 : S4000x128.Slices ![0, 0] S4000x64
  inb_S4000x64_S4000x64_0_0 : ∀ a, (![0, 0] : Fin 2 → Nat) a + S4000x64.size a ≤ S4000x64.size a
  h_S4000x64 : 0 < S4000x64.numel
  slices_S4000x128_o0_64_S4000x64 : S4000x128.Slices ![0, 64] S4000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000x64_S50000x128 : S100000x64.ShapeCasts S50000x128
  concatenates_S64_S64_S128_d0 : Shape.Concatenates [S64, S64] S128 0
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S50000x128_S100000x64 : S50000x128.ShapeCasts S100000x64
  dot_S4000x512_S512x128_S4000x128_1_0_0_1_n_n_wf : DotDims.WF S4000x512 S512x128 S4000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_1) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S1600000 : Shape := ⟨1, ![1600000]⟩
abbrev S100000x64 : Shape := ⟨2, ![100000, 64]⟩
abbrev S512x64 : Shape := ⟨2, ![512, 64]⟩
abbrev S64x512 : Shape := ⟨2, ![64, 512]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x64, .f32⟩
  | .hbm, ⟨5, _⟩ => ⟨S512x64, .f32⟩
  | .hbm, ⟨6, _⟩ => ⟨S64x512, .f32⟩
  | .hbm, ⟨7, _⟩ => ⟨S64, .f32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S512x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x512_S512x64_1_0 : S64x512.Transposes [1, 0] S512x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its three result arrays NAMED.

  @main is five segments: a stretch of host operations, the matrix-product region, a second stretch, the
  pointwise region, a last stretch.  The buffer contents at each boundary are a fold from the launch memory
  (`Gen.W0` … `Gen.W5`): a stretch applies its operations, a region replaces its windows' arrays by what its
  write-backs leave.  Every weakly fair execution terminates with every unscoped buffer at the last boundary's
  contents `Gen.W5`; read at the three results and at the eight arguments, that is the statement below.
  What `Gen.W5` holds at the results, as a function of the arguments, is the business of the modules that
  import this one.
-/
import proofs.«130356_j88038239633789_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result array at the last
    boundary's contents and each argument array as launched. -/
theorem run : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_v22) = W5 m ρ c (Proc.devRef .tc main_v22)
      ∧ r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       h c _ (mem_uc main_v22 (by decide)),
       h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Whole

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.MatBlock.lean ====
/-
  The matrix-product region's body, read at an index.

  The first kernel works on a block `x` of 4000 rows of the features and on the whole 512×128 array `w` whose
  left 64 columns are the aggregation weights and whose right 64 columns are the transposed encoder weights.  It
  forms the one product `x · w` (the roundings to bfloat16 on the way in are the identity on the extended reals,
  and the accumulator starts at zero) and stores its left half and its right half separately:

    left[p, q]  = ∑ k, x[p, k] · w[k, q]            right[p, q] = ∑ k, x[p, k] · w[k, 64 + q].
-/
import proofs.«130356_j88038239633789_2_alg».proof.Proof.Gen.KernelIdeal.Skeleton
import proofs.«130356_j88038239633789_2_alg».proof.Proof.LibPlainDot
import Idealize.ShloMosaic.Lib.ValueIdx
import Idealize.ShloMosaic.Lib.Pipeline.Value

noncomputable section

namespace Cert.KernelIdeal.Encoder

open Cert.KernelIdeal Cert.KernelIdeal.Gen Idealize.ShloMosaic Idealize.ShloMosaic.ValueIdx Cert.Lib.PlainDot

/-- The body's product is the plain product of the block by the weights, as one whole array. -/
theorem product_eq (x : Vec Ideal S4000x512 .f32) (w : Vec Ideal S512x128 .f32) :
    k0_pay1 (F := Ideal) x w = rowsByCols (M := 4000) (K := 512) (N := 128) x w := by
  unfold k0_pay1
  refine (matmul_zero_eq (M := 4000) (K := 512) (N := 128) dot_S4000x512_S512x128_S4000x128_1_0_0_1_n_n rfl none _ _).trans ?_
  rw [shapeCast_self]
  rfl

/-- The left half of the product, stored to the first output, at `(p, q)`. -/
theorem leftHalf_apply (x : Vec Ideal S4000x512 .f32) (w : Vec Ideal S512x128 .f32) (p : Fin 4000) (q : Fin 64) :
    k0_pay2 (F := Ideal) x w (ix2 p q)
      = ∑ k : Fin 512, x (ix2 p k) * w (ix2 k (⟨q.val, by have := q.isLt; omega⟩ : Fin 128)) := by
  have hq : q.val < 128 := by have := q.isLt; omega
  have e : extractStridedSlice (s := S4000x128) S4000x64 ![0, 0] (k0_pay1 (F := Ideal) x w) slices_S4000x128_o0_0_S4000x64 (ix2 p q)
      = k0_pay1 (F := Ideal) x w (ix2 p (⟨q.val, hq⟩ : Fin 128)) :=
    extractStridedSlice_apply (s := S4000x128) (t := S4000x64) ![0, 0] (k0_pay1 (F := Ideal) x w) slices_S4000x128_o0_0_S4000x64
      (ix2 p q) (ix2 p (⟨q.val, hq⟩ : Fin 128)) (fun a => by
        match a with
        | ⟨0, _⟩ => exact (Nat.zero_add p.val).symm
        | ⟨1, _⟩ => exact (Nat.zero_add q.val).symm)
  unfold k0_pay2
  refine e.trans ?_
  rw [product_eq]
  rfl

/-- The right half of the product, stored to the second output, at `(p, q)`. -/
theorem rightHalf_apply (x : Vec Ideal S4000x512 .f32) (w : Vec Ideal S512x128 .f32) (p : Fin 4000) (q : Fin 64) :
    k0_pay3 (F := Ideal) x w (ix2 p q)
      = ∑ k : Fin 512, x (ix2 p k) * w (ix2 k (⟨64 + q.val, by have := q.isLt; omega⟩ : Fin 128)) := by
  unfold k0_pay3
  refine (extractStridedSlice_apply ![0, 64] (k0_pay1 (F := Ideal) x w) slices_S4000x128_o0_64_S4000x64 (ix2 p q)
    (ix2 p (⟨64 + q.val, by have := q.isLt; omega⟩ : Fin 128)) (fun a => by
      match a with
      | ⟨0, _⟩ => show p.val = 0 + p.val; omega
      | ⟨1, _⟩ => show 64 + q.val = 64 + q.val; rfl)).trans ?_
  rw [product_eq]
  rfl

end Cert.KernelIdeal.Encoder

end
-- ==== Proof.Region0.lean ====
/-
  The matrix-product region: its two output arrays after the run.

  The grid has 25 points.  At point `t` the kernel reads rows `4000·t … 4000·t + 3999` of the features `X`
  (window 0) and the whole weights `W` (window 1, fetched once), and writes rows `4000·t …` of its two outputs
  (windows 2 and 3).  So what point `t` writes back to output 2 is block `t` of the ONE array

    left[r, q] = ∑ k, X[r, k] · W[k, q]                                   (r < 100000, q < 64)

  and to output 3 block `t` of  right[r, q] = ∑ k, X[r, k] · W[k, 64 + q].  The 25 blocks of 4000 rows cover the
  100000 rows (row `r` lies in block `r / 4000`), so after the run the two arrays hold `left` and `right`.
  Everything is stated at the contents `V` the region is entered with, whatever they are.
-/
import proofs.«130356_j88038239633789_2_alg».proof.Proof.Gen.KernelIdeal.Frame
import proofs.«130356_j88038239633789_2_alg».proof.Proof.MatBlock

set_option maxRecDepth 16384

noncomputable section

namespace Cert.KernelIdeal.Encoder

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- Entry `(r, q)` of the left half of the product of the whole features by the whole weights. -/
def leftAt (X : (⟨S100000x512, .f32⟩ : BufTy).Contents (Elt Ideal)) (W : (⟨S512x128, .f32⟩ : BufTy).Contents (Elt Ideal))
    (r : Fin 100000) (q : Fin 64) : EReal :=
  ∑ k : Fin 512, X (ix2 r k) * W (ix2 k (⟨q.val, by have := q.isLt; omega⟩ : Fin 128))

/-- Entry `(r, q)` of the right half. -/
def rightAt (X : (⟨S100000x512, .f32⟩ : BufTy).Contents (Elt Ideal)) (W : (⟨S512x128, .f32⟩ : BufTy).Contents (Elt Ideal))
    (r : Fin 100000) (q : Fin 64) : EReal :=
  ∑ k : Fin 512, X (ix2 r k) * W (ix2 k (⟨64 + q.val, by have := q.isLt; omega⟩ : Fin 128))

/-- The two halves as arrays. -/
def leftOf (X : (⟨S100000x512, .f32⟩ : BufTy).Contents (Elt Ideal)) (W : (⟨S512x128, .f32⟩ : BufTy).Contents (Elt Ideal)) :
    (⟨S100000x64, .f32⟩ : BufTy).Contents (Elt Ideal) := fun j => leftAt X W (j 0) (j 1)
def rightOf (X : (⟨S100000x512, .f32⟩ : BufTy).Contents (Elt Ideal)) (W : (⟨S512x128, .f32⟩ : BufTy).Contents (Elt Ideal)) :
    (⟨S100000x64, .f32⟩ : BufTy).Contents (Elt Ideal) := fun j => rightAt X W (j 0) (j 1)

/-- The printed index maps over the grid: the row-blocked windows are at block `t` of their first axis, the
    weights at their one block. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the features' block at point `t` is row `4000·t + p` of the features. -/
theorem rowsBlock_read (c : Dev nD) (t : Fin cfg0.N) (p : Fin 4000) (k : Fin 512) :
    iblk0 V c 0 t (ix2 p k)
      = V c main_arg0 (ix2 (⟨t.val * 4000 + p.val, by have := t.isLt; have hN : cfg0.N = 25 := N_0; have := p.isLt; omega⟩ : Fin 100000) k) := by
  show V c main_arg0 (((cfg0.win 0).blk t).view.emb (ix2 p k)) = _
  obtain ⟨e0, e1, -⟩ := blockIdx0 t
  refine congrArg (V c main_arg0) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 512 + 1 * k.val = k.val; rw [e1]; omega

/-- The weights' block at any point is the weights. -/
theorem weightBlock_read (c : Dev nD) (t : Fin cfg0.N) (k : Fin 512) (q : Fin 128) :
    iblk0 V c 1 t (ix2 k q) = V c main_v1 (ix2 k q) := by
  show V c main_v1 (((cfg0.win 1).blk t).view.emb (ix2 k q)) = _
  obtain ⟨-, -, e2, e3, -⟩ := blockIdx0 t
  refine congrArg (V c main_v1) (funext fun a => Fin.ext ?_)
  match a with
  | ⟨0, _⟩ => show win0_1.index t (0 : Fin 2) * 512 + 1 * k.val = k.val; rw [e2]; omega
  | ⟨1, _⟩ => show win0_1.index t (1 : Fin 2) * 128 + 1 * q.val = q.val; rw [e3]; omega

/-- WHAT POINT `t` WRITES BACK to output 2 is block `t` of the left half. -/
theorem flushedLeft (c : Dev nD) (t : Fin cfg0.N) :
    (dat0 V c).flushed 2 t = ((cfg0.win 2).blk t).view.read (Elt Ideal) (leftOf (V c main_arg0) (V c main_v1)) := by
  show (cfg0.win 2).cut (grid0.coords t) ((dat0 V c).after 2 t) = _
  rw [after0_2]
  unfold out0_2
  rw [View.canon_unit_zero origin2]
  simp only [View.ld_unit_zero (S := S4000x512) origin2, View.ld_unit_zero (S := S512x128) origin2]
  funext j
  obtain ⟨p, q, rfl⟩ : ∃ (p : Fin 4000) (q : Fin 64), j = ix2 p q := ⟨j 0, j 1, eq_ix2 j⟩
  show k0_pay2 (F := Ideal) (iblk0 V c 0 t) (iblk0 V c 1 t) (ix2 p q)
    = leftAt (V c main_arg0) (V c main_v1) ((((cfg0.win 2).blk t).view.emb (ix2 p q)) 0) ((((cfg0.win 2).blk t).view.emb (ix2 p q)) 1)
  refine (leftHalf_apply (iblk0 V c 0 t) (iblk0 V c 1 t) p q).trans ?_
  unfold leftAt
  obtain ⟨-, -, -, -, e4, e5, -⟩ := blockIdx0 t
  refine Finset.sum_congr rfl fun k _ => ?_
  rw [rowsBlock_read, weightBlock_read]
  refine congrArg₂ (· * ·) (congrArg (V c main_arg0) (funext fun a => Fin.ext ?_)) (congrArg (V c main_v1) (funext fun a => Fin.ext ?_))
  · match a with
    | ⟨0, _⟩ => show t.val * 4000 + p.val = win0_2.index t (0 : Fin 2) * 4000 + 1 * p.val; rw [e4]; omega
    | ⟨1, _⟩ => rfl
  · match a with
    | ⟨0, _⟩ => rfl
    | ⟨1, _⟩ => show q.val = win0_2.index t (1 : Fin 2) * 64 + 1 * q.val; rw [e5]; omega

/-- WHAT POINT `t` WRITES BACK to output 3 is block `t` of the right half. -/
theorem flushedRight (c : Dev nD) (t : Fin cfg0.N) :
    (dat0 V c).flushed 3 t = ((cfg0.win 3).blk t).view.read (Elt Ideal) (rightOf (V c main_arg0) (V c main_v1)) := by
  show (cfg0.win 3).cut (grid0.coords t) ((dat0 V c).after 3 t) = _
  rw [after0_3]
  unfold out0_3
  rw [View.canon_unit_zero origin2]
  simp only [View.ld_unit_zero (S := S4000x512) origin2, View.ld_unit_zero (S := S512x128) origin2]
  funext j
  obtain ⟨p, q, rfl⟩ : ∃ (p : Fin 4000) (q : Fin 64), j = ix2 p q := ⟨j 0, j 1, eq_ix2 j⟩
  show k0_pay3 (F := Ideal) (iblk0 V c 0 t) (iblk0 V c 1 t) (ix2 p q)
    = rightAt (V c main_arg0) (V c main_v1) ((((cfg0.win 3).blk t).view.emb (ix2 p q)) 0) ((((cfg0.win 3).blk t).view.emb (ix2 p q)) 1)
  refine (rightHalf_apply (iblk0 V c 0 t) (iblk0 V c 1 t) p q).trans ?_
  unfold rightAt
  obtain ⟨-, -, -, -, -, -, e6, e7⟩ := blockIdx0 t
  refine Finset.sum_congr rfl fun k _ => ?_
  rw [rowsBlock_read, weightBlock_read]
  refine congrArg₂ (· * ·) (congrArg (V c main_arg0) (funext fun a => Fin.ext ?_)) (congrArg (V c main_v1) (funext fun a => Fin.ext ?_))
  · match a with
    | ⟨0, _⟩ => show t.val * 4000 + p.val = win0_3.index t (0 : Fin 2) * 4000 + 1 * p.val; rw [e6]; omega
    | ⟨1, _⟩ => rfl
  · match a with
    | ⟨0, _⟩ => rfl
    | ⟨1, _⟩ => show 64 + q.val = 64 + (win0_3.index t (1 : Fin 2) * 64 + 1 * q.val); rw [e7]; omega

/-- An index of output 2's array is in point `t`'s block iff each coordinate is in the block's range on its axis. -/
theorem mem_leftBlock (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v2_0).slice (win0_2.rect t)).set ↔ _
  rw [View.set_slice_whole, Rect.mem_set_unit]
  exact Iff.rfl

theorem mem_rightBlock (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v2_1).slice (win0_3.rect t)).set ↔ _
  rw [View.set_slice_whole, Rect.mem_set_unit]
  exact Iff.rfl

/-- The point whose block holds row `r`: `r / 4000`. -/
def pointOfRow (i : S100000x64.Idx) : Fin cfg0.N :=
  ⟨(i 0).val / 4000, by have := idx2_lt0 i; have hN : cfg0.N = 25 := N_0; omega⟩

/-- Every index of output 2's array is in some point's block. -/
theorem leftCover (i : S100000x64.Idx) :
    ∃ t : Fin cfg0.N, (cfg0.win 2).flush t = true ∧ i ∈ ((cfg0.win 2).blk t).view.set := by
  have hi1 : (i 1).val < 64 := idx2_lt1 i
  have ht : (pointOfRow i).val = (i 0).val / 4000 := rfl
  obtain ⟨-, -, -, -, e4, e5, -⟩ := blockIdx0 (pointOfRow i)
  refine ⟨pointOfRow i, flush0_2 _, ?_⟩
  rw [mem_leftBlock]
  intro a
  match a with
  | ⟨0, _⟩ =>
    show win0_2.index (pointOfRow i) (0 : Fin 2) * 4000 ≤ (i 0).val ∧ (i 0).val < win0_2.index (pointOfRow i) (0 : Fin 2) * 4000 + 4000
    rw [e4, ht]; omega
  | ⟨1, _⟩ =>
    show win0_2.index (pointOfRow i) (1 : Fin 2) * 64 ≤ (i 1).val ∧ (i 1).val < win0_2.index (pointOfRow i) (1 : Fin 2) * 64 + 64
    rw [e5]; omega

theorem rightCover (i : S100000x64.Idx) :
    ∃ t : Fin cfg0.N, (cfg0.win 3).flush t = true ∧ i ∈ ((cfg0.win 3).blk t).view.set := by
  have hi1 : (i 1).val < 64 := idx2_lt1 i
  have ht : (pointOfRow i).val = (i 0).val / 4000 := rfl
  obtain ⟨-, -, -, -, -, -, e6, e7⟩ := blockIdx0 (pointOfRow i)
  refine ⟨pointOfRow i, flush0_3 _, ?_⟩
  rw [mem_rightBlock]
  intro a
  match a with
  | ⟨0, _⟩ =>
    show win0_3.index (pointOfRow i) (0 : Fin 2) * 4000 ≤ (i 0).val ∧ (i 0).val < win0_3.index (pointOfRow i) (0 : Fin 2) * 4000 + 4000
    rw [e6, ht]; omega
  | ⟨1, _⟩ =>
    show win0_3.index (pointOfRow i) (1 : Fin 2) * 64 ≤ (i 1).val ∧ (i 1).val < win0_3.index (pointOfRow i) (1 : Fin 2) * 64 + 64
    rw [e7]; omega

/-- THE TWO ARRAYS after the region: the left and the right half of the product of the features by the weights
    as the region found them. -/
theorem leftArray (c : Dev nD) : (dat0 V c).arrAt 2 cfg0.N = leftOf (V c main_arg0) (V c main_v1) :=
  (dat0 V c).arrAt_eq_of_cover 2 _ (fun t _ => flushedLeft V c t) leftCover

theorem rightArray (c : Dev nD) : (dat0 V c).arrAt 3 cfg0.N = rightOf (V c main_arg0) (V c main_v1) :=
  (dat0 V c).arrAt_eq_of_cover 3 _ (fun t _ => flushedRight V c t) rightCover

end Cert.KernelIdeal.Encoder

end
-- ==== Proof.Pointwise.lean ====
/-
  The pointwise region's body, read at an index.

  The second kernel works on a block of 2000 rows of the row-paired view: it loads a block `l` of the linear
  branch, the one row `b` of the doubled bias, a block `q` of the aggregated messages and a block `z` of the
  noise, and stores

    s[p, c] = sqrt (exp (l[p, c] + b[0, c]) + ε)        and        q[p, c] + s[p, c] · z[p, c],

  ε the float word 0x38D1B717.  The two casts in the body keep their shape and the bias row is spread over the
  2000 rows, so at an index each store is the scalar expression of the operands at that index.
-/
import proofs.«130356_j88038239633789_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Encoder

open Cert.KernelIdeal Cert.KernelIdeal.Gen Idealize.ShloMosaic Idealize.ShloMosaic.ValueIdx

/-- The standard deviation from one entry of the linear branch and one entry of the bias:
    `sqrt (exp (l + b) + ε)` on the extended reals. -/
def sdev (l b : EReal) : EReal := Ideal.sqrt (Ideal.exp (l + b) + Ideal.ofBits .f32 0x38D1B717#32)

/-- The first store of the pointwise body at `(p, c)`. -/
theorem sdevBlock_apply (l : Vec Ideal S2000x128 .f32) (b : Vec Ideal S1x128 .f32) (p : Fin 2000) (c : Fin 128) :
    k1_pay1 (F := Ideal) l b (ix2 p c) = sdev (l (ix2 p c)) (b (ix2 (0 : Fin 1) c)) := by
  unfold k1_pay1 sdev
  show Ideal.sqrt (Ideal.exp (shapeCast S2000x128 l shapeCasts_S2000x128_S2000x128 (ix2 p c)
      + broadcastTo S2000x128 (shapeCast S1x128 b shapeCasts_S1x128_S1x128) broadcasts_S1x128_S2000x128 (ix2 p c))
      + Ideal.ofBits .f32 0x38D1B717#32) = _
  rw [shapeCast_self, shapeCast_self, broadcastTo_1b_ab_apply]

/-- The second store of the pointwise body at `(p, c)`. -/
theorem sampleBlock_apply (l : Vec Ideal S2000x128 .f32) (b : Vec Ideal S1x128 .f32) (q z : Vec Ideal S2000x128 .f32)
    (p : Fin 2000) (c : Fin 128) :
    k1_pay2 (F := Ideal) l b q z (ix2 p c)
      = q (ix2 p c) + sdev (l (ix2 p c)) (b (ix2 (0 : Fin 1) c)) * z (ix2 p c) := by
  unfold k1_pay2
  show shapeCast S2000x128 q shapeCasts_S2000x128_S2000x128 (ix2 p c)
      + k1_pay1 (F := Ideal) l b (ix2 p c) * shapeCast S2000x128 z shapeCasts_S2000x128_S2000x128 (ix2 p c) = _
  rw [shapeCast_self, shapeCast_self, sdevBlock_apply]

end Cert.KernelIdeal.Encoder

end
-- ==== Proof.Region1.lean ====
/-
  The pointwise region: its two output arrays after the run.

  The grid has 25 points.  On the row-paired view (50000 rows of 128) point `t` reads rows `2000·t …` of the
  aggregated messages `Q`, of the linear branch `L` and of the noise `Z` (windows 0, 1, 2) and the one doubled
  bias row `B` (window 3, fetched once), and writes rows `2000·t …` of its two outputs (windows 4 and 5).  What
  point `t` writes back is block `t` of

    S[r, c] = sqrt (exp (L[r, c] + B[0, c]) + ε)          and          Q[r, c] + S[r, c] · Z[r, c],

  and the 25 blocks of 2000 rows cover the 50000 rows (row `r` lies in block `r / 2000`).  Everything is stated
  at the contents `V` the region is entered with, whatever they are.
-/
import proofs.«130356_j88038239633789_2_alg».proof.Proof.Gen.KernelIdeal.Frame
import proofs.«130356_j88038239633789_2_alg».proof.Proof.Pointwise

set_option maxRecDepth 16384

noncomputable section

namespace Cert.KernelIdeal.Encoder

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2' : (![0, 0] : Fin 2 → Nat) = fun _ => 0 := funext fun a => by fin_cases a <;> rfl

/-- The standard deviations on the row-paired view, from the linear branch and the doubled bias row. -/
def sdevPaired (L : (⟨S50000x128, .f32⟩ : BufTy).Contents (Elt Ideal)) (B : (⟨S1x128, .f32⟩ : BufTy).Contents (Elt Ideal)) :
    (⟨S50000x128, .f32⟩ : BufTy).Contents (Elt Ideal) := fun j => sdev (L j) (B (ix2 (0 : Fin 1) (j 1)))

/-- The samples on the row-paired view: mean plus standard deviation times noise. -/
def samplePaired (Q L Z : (⟨S50000x128, .f32⟩ : BufTy).Contents (Elt Ideal)) (B : (⟨S1x128, .f32⟩ : BufTy).Contents (Elt Ideal)) :
    (⟨S50000x128, .f32⟩ : BufTy).Contents (Elt Ideal) := fun j => Q j + sdev (L j) (B (ix2 (0 : Fin 1) (j 1))) * Z j

/-- The printed index maps over the grid: the row-blocked windows are at block `t` of their first axis, the bias
    row at its one block. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Entry `(p, q)` of block `t` of a row-blocked array of the paired view sits at row `2000·t + p`. -/
def rowAt (t : Fin cfg1.N) (p : Fin 2000) (q : Fin 128) : S50000x128.Idx :=
  ix2 (⟨t.val * 2000 + p.val, by have := t.isLt; have hN : cfg1.N = 25 := N_1; have := p.isLt; omega⟩ : Fin 50000) q

/-- Block `t` of the aggregated messages. -/
theorem meanBlock_read (c : Dev nD) (t : Fin cfg1.N) (p : Fin 2000) (q : Fin 128) :
    iblk1 V c 0 t (ix2 p q) = V c main_v16 (rowAt t p q) := by
  show V c main_v16 (((cfg1.win 0).blk t).view.emb (ix2 p q)) = _
  have e := blockIdx1 t
  refine congrArg (V c main_v16) (funext fun a => Fin.ext ?_)
  match a with
  | ⟨0, _⟩ => show win1_0.index t (0 : Fin 2) * 2000 + 1 * p.val = t.val * 2000 + p.val; rw [e.1]; omega
  | ⟨1, _⟩ => show win1_0.index t (1 : Fin 2) * 128 + 1 * q.val = q.val; rw [e.2.1]; omega

/-- Block `t` of the linear branch. -/
theorem linBlock_read (c : Dev nD) (t : Fin cfg1.N) (p : Fin 2000) (q : Fin 128) :
    iblk1 V c 1 t (ix2 p q) = V c main_v17 (rowAt t p q) := by
  show V c main_v17 (((cfg1.win 1).blk t).view.emb (ix2 p q)) = _
  have e := blockIdx1 t
  refine congrArg (V c main_v17) (funext fun a => Fin.ext ?_)
  match a with
  | ⟨0, _⟩ => show win1_1.index t (0 : Fin 2) * 2000 + 1 * p.val = t.val * 2000 + p.val; rw [e.2.2.1]; omega
  | ⟨1, _⟩ => show win1_1.index t (1 : Fin 2) * 128 + 1 * q.val = q.val; rw [e.2.2.2.1]; omega

/-- Block `t` of the noise. -/
theorem noiseBlock_read (c : Dev nD) (t : Fin cfg1.N) (p : Fin 2000) (q : Fin 128) :
    iblk1 V c 2 t (ix2 p q) = V c main_v18 (rowAt t p q) := by
  show V c main_v18 (((cfg1.win 2).blk t).view.emb (ix2 p q)) = _
  have e := blockIdx1 t
  refine congrArg (V c main_v18) (funext fun a => Fin.ext ?_)
  match a with
  | ⟨0, _⟩ => show win1_2.index t (0 : Fin 2) * 2000 + 1 * p.val = t.val * 2000 + p.val; rw [e.2.2.2.2.1]; omega
  | ⟨1, _⟩ => show win1_2.index t (1 : Fin 2) * 128 + 1 * q.val = q.val; rw [e.2.2.2.2.2.1]; omega

/-- The bias row's block at any point is the bias row. -/
theorem biasBlock_read (c : Dev nD) (t : Fin cfg1.N) (q : Fin 128) :
    iblk1 V c 3 t (ix2 (0 : Fin 1) q) = V c main_v20 (ix2 (0 : Fin 1) q) := by
  show V c main_v20 (((cfg1.win 3).blk t).view.emb (ix2 (0 : Fin 1) q)) = _
  have e := blockIdx1 t
  refine congrArg (V c main_v20) (funext fun a => Fin.ext ?_)
  match a with
  | ⟨0, _⟩ => show win1_3.index t (0 : Fin 2) * 1 + 1 * 0 = 0; rw [e.2.2.2.2.2.2.1]
  | ⟨1, _⟩ => show win1_3.index t (1 : Fin 2) * 128 + 1 * q.val = q.val; rw [e.2.2.2.2.2.2.2.1]; omega

/-- Where entry `(p, q)` of output 4's block at point `t` sits in the array. -/
theorem sdevBlock_emb (t : Fin cfg1.N) (p : Fin 2000) (q : Fin 128) :
    (((cfg1.win 4).blk t).view.emb (ix2 p q) : S50000x128.Idx) = rowAt t p q := by
  have e := blockIdx1 t
  refine funext fun a => Fin.ext ?_
  match a with
  | ⟨0, _⟩ => show win1_4.index t (0 : Fin 2) * 2000 + 1 * p.val = t.val * 2000 + p.val; rw [e.2.2.2.2.2.2.2.2.1]; omega
  | ⟨1, _⟩ => show win1_4.index t (1 : Fin 2) * 128 + 1 * q.val = q.val; rw [e.2.2.2.2.2.2.2.2.2.1]; omega

/-- Where entry `(p, q)` of output 5's block at point `t` sits in the array. -/
theorem sampleBlock_emb (t : Fin cfg1.N) (p : Fin 2000) (q : Fin 128) :
    (((cfg1.win 5).blk t).view.emb (ix2 p q) : S50000x128.Idx) = rowAt t p q := by
  have e := blockIdx1 t
  refine funext fun a => Fin.ext ?_
  match a with
  | ⟨0, _⟩ => show win1_5.index t (0 : Fin 2) * 2000 + 1 * p.val = t.val * 2000 + p.val; rw [e.2.2.2.2.2.2.2.2.2.2.1]; omega
  | ⟨1, _⟩ => show win1_5.index t (1 : Fin 2) * 128 + 1 * q.val = q.val; rw [e.2.2.2.2.2.2.2.2.2.2.2]; omega

/-- WHAT POINT `t` WRITES BACK to output 4 is block `t` of the standard deviations. -/
theorem flushedSdev (c : Dev nD) (t : Fin cfg1.N) :
    (dat1 V c).flushed 4 t = ((cfg1.win 4).blk t).view.read (Elt Ideal) (sdevPaired (V c main_v17) (V c main_v20)) := by
  show (cfg1.win 4).cut (grid1.coords t) ((dat1 V c).after 4 t) = _
  rw [after1_4]
  unfold out1_4
  rw [View.canon_unit_zero origin2']
  simp only [View.ld_unit_zero (S := S2000x128) origin2', View.ld_unit_zero (S := S1x128) origin2']
  funext j
  obtain ⟨p, q, rfl⟩ : ∃ (p : Fin 2000) (q : Fin 128), j = ix2 p q := ⟨j 0, j 1, eq_ix2 j⟩
  show k1_pay1 (F := Ideal) (iblk1 V c 1 t) (iblk1 V c 3 t) (ix2 p q)
    = sdevPaired (V c main_v17) (V c main_v20) (((cfg1.win 4).blk t).view.emb (ix2 p q))
  rw [sdevBlock_emb]
  refine (sdevBlock_apply (iblk1 V c 1 t) (iblk1 V c 3 t) p q).trans ?_
  rw [linBlock_read, biasBlock_read]
  rfl

/-- WHAT POINT `t` WRITES BACK to output 5 is block `t` of the samples. -/
theorem flushedSample (c : Dev nD) (t : Fin cfg1.N) :
    (dat1 V c).flushed 5 t
      = ((cfg1.win 5).blk t).view.read (Elt Ideal) (samplePaired (V c main_v16) (V c main_v17) (V c main_v18) (V c main_v20)) := by
  show (cfg1.win 5).cut (grid1.coords t) ((dat1 V c).after 5 t) = _
  rw [after1_5]
  unfold out1_5
  rw [View.canon_unit_zero origin2']
  simp only [View.ld_unit_zero (S := S2000x128) origin2', View.ld_unit_zero (S := S1x128) origin2']
  funext j
  obtain ⟨p, q, rfl⟩ : ∃ (p : Fin 2000) (q : Fin 128), j = ix2 p q := ⟨j 0, j 1, eq_ix2 j⟩
  show k1_pay2 (F := Ideal) (iblk1 V c 1 t) (iblk1 V c 3 t) (iblk1 V c 0 t) (iblk1 V c 2 t) (ix2 p q)
    = samplePaired (V c main_v16) (V c main_v17) (V c main_v18) (V c main_v20) (((cfg1.win 5).blk t).view.emb (ix2 p q))
  rw [sampleBlock_emb]
  refine (sampleBlock_apply (iblk1 V c 1 t) (iblk1 V c 3 t) (iblk1 V c 0 t) (iblk1 V c 2 t) p q).trans ?_
  rw [linBlock_read, biasBlock_read, meanBlock_read, noiseBlock_read]
  rfl

/-- An index of output 4's array is in point `t`'s block iff each coordinate is in the block's range on its axis. -/
theorem mem_sdevBlock (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v21_0).slice (win1_4.rect t)).set ↔ _
  rw [View.set_slice_whole, Rect.mem_set_unit]
  exact Iff.rfl

theorem mem_sampleBlock (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v21_1).slice (win1_5.rect t)).set ↔ _
  rw [View.set_slice_whole, Rect.mem_set_unit]
  exact Iff.rfl

/-- The point whose block holds row `r` of the paired view: `r / 2000`. -/
def pointOfPairedRow (i : S50000x128.Idx) : Fin cfg1.N :=
  ⟨(i 0).val / 2000, by have := idx2_lt0 i; have hN : cfg1.N = 25 := N_1; omega⟩

theorem sdevCover (i : S50000x128.Idx) :
    ∃ t : Fin cfg1.N, (cfg1.win 4).flush t = true ∧ i ∈ ((cfg1.win 4).blk t).view.set := by
  have hi1 : (i 1).val < 128 := idx2_lt1 i
  have ht : (pointOfPairedRow i).val = (i 0).val / 2000 := rfl
  have e := blockIdx1 (pointOfPairedRow i)
  refine ⟨pointOfPairedRow i, flush1_4 _, ?_⟩
  rw [mem_sdevBlock]
  intro a
  match a with
  | ⟨0, _⟩ =>
    show win1_4.index (pointOfPairedRow i) (0 : Fin 2) * 2000 ≤ (i 0).val ∧ (i 0).val < win1_4.index (pointOfPairedRow i) (0 : Fin 2) * 2000 + 2000
    rw [e.2.2.2.2.2.2.2.2.1, ht]; omega
  | ⟨1, _⟩ =>
    show win1_4.index (pointOfPairedRow i) (1 : Fin 2) * 128 ≤ (i 1).val ∧ (i 1).val < win1_4.index (pointOfPairedRow i) (1 : Fin 2) * 128 + 128
    rw [e.2.2.2.2.2.2.2.2.2.1]; omega

theorem sampleCover (i : S50000x128.Idx) :
    ∃ t : Fin cfg1.N, (cfg1.win 5).flush t = true ∧ i ∈ ((cfg1.win 5).blk t).view.set := by
  have hi1 : (i 1).val < 128 := idx2_lt1 i
  have ht : (pointOfPairedRow i).val = (i 0).val / 2000 := rfl
  have e := blockIdx1 (pointOfPairedRow i)
  refine ⟨pointOfPairedRow i, flush1_5 _, ?_⟩
  rw [mem_sampleBlock]
  intro a
  match a with
  | ⟨0, _⟩ =>
    show win1_5.index (pointOfPairedRow i) (0 : Fin 2) * 2000 ≤ (i 0).val ∧ (i 0).val < win1_5.index (pointOfPairedRow i) (0 : Fin 2) * 2000 + 2000
    rw [e.2.2.2.2.2.2.2.2.2.2.1, ht]; omega
  | ⟨1, _⟩ =>
    show win1_5.index (pointOfPairedRow i) (1 : Fin 2) * 128 ≤ (i 1).val ∧ (i 1).val < win1_5.index (pointOfPairedRow i) (1 : Fin 2) * 128 + 128
    rw [e.2.2.2.2.2.2.2.2.2.2.2]; omega

/-- THE TWO ARRAYS after the region: the standard deviations and the samples on the row-paired view, of the arrays
    as the region found them. -/
theorem sdevArray (c : Dev nD) : (dat1 V c).arrAt 4 cfg1.N = sdevPaired (V c main_v17) (V c main_v20) :=
  (dat1 V c).arrAt_eq_of_cover 4 _ (fun t _ => flushedSdev V c t) sdevCover

theorem sampleArray (c : Dev nD) :
    (dat1 V c).arrAt 5 cfg1.N = samplePaired (V c main_v16) (V c main_v17) (V c main_v18) (V c main_v20) :=
  (dat1 V c).arrAt_eq_of_cover 5 _ (fun t _ => flushedSample V c t) sampleCover

end Cert.KernelIdeal.Encoder

end
-- ==== Proof.Boundary.lean ====
/-
  The buffer contents at the segment boundaries, at the buffers the results depend on.

  Before the first region the host transposes the encoder weights and joins them to the right of the
  aggregation weights; the first region then leaves the two halves of the product.  Between the regions the host
  gathers rows of the left half by source node, scales them by the edge weights and adds them up by destination
  node (`edgeSum`, kept as ONE function of the left half and never opened), and re-lays this sum, the right half
  and the noise as 50000 rows of 128, and the bias twice over as one row of 128.  After the second region the
  host re-lays its two outputs as 100000 rows of 64.
-/
import proofs.«130356_j88038239633789_2_alg».proof.Proof.Gen.KernelIdeal.Frame
import proofs.«130356_j88038239633789_2_alg».proof.Proof.Region0
import proofs.«130356_j88038239633789_2_alg».proof.Proof.Region1
import Idealize.ShloMosaic.Lib.StableHlo.Run

set_option maxRecDepth 16384

noncomputable section

namespace Cert.KernelIdeal.Encoder

open Cert.KernelIdeal Cert.KernelIdeal.Gen Idealize.ShloMosaic Idealize.ShloMosaic.TcCoe Idealize.SL.Sem
open Idealize.ShloMosaic.StableHlo Idealize.ShloMosaic.ValueIdx

/-- The aggregation over the edge list as one function of the table `S` whose rows are gathered: for every edge,
    row `src` of `S` (a negative index counted from the end) times the edge's weight, added into row `dst` of a
    zero array. -/
def edgeSum (S : (⟨S100000x64, .f32⟩ : BufTy).Contents (Elt Ideal)) (src dst : (⟨S1600000, .i32⟩ : BufTy).Contents (Elt Ideal))
    (wt : (⟨S1600000, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (Host.gather gather_S100000x64_S1600000x1_S1600000x64_1_0_n_n_0_1_164 S
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 wt)))

/-- The joined weights: the aggregation weights on the left, the transposed encoder weights on the right. -/
def joined (g : (⟨S512x64, .f32⟩ : BufTy).Contents (Elt Ideal)) (e : (⟨S64x512, .f32⟩ : BufTy).Contents (Elt Ideal)) :
    (⟨S512x128, .f32⟩ : BufTy).Contents (Elt Ideal) :=
  concatenate S512x128 1 [⟨S512x64, g⟩, ⟨S512x64, transpose S512x64 [1, 0] e transposes_S64x512_S512x64_1_0⟩]
    concatenates_S512x64_S512x64_S512x128_d1

/-- The bias twice over, as one row of 128. -/
def doubledRow (b : (⟨S64, .f32⟩ : BufTy).Contents (Elt Ideal)) : (⟨S1x128, .f32⟩ : BufTy).Contents (Elt Ideal) :=
  shapeCast S1x128 (concatenate S128 0 [⟨S64, b⟩, ⟨S64, b⟩] concatenates_S64_S64_S128_d0) shapeCasts_S128_S1x128

variable (m : (ℓ : Loc nD τ sig) → Buf (Elt Ideal) ℓ) (ρ : Dev nD → PrngReg)

/-! ## Entering the first region -/

theorem enter0_features (c : Dev nD) : V1 m ρ c main_arg0 = m ((c : Thread nD τ).loc main_arg0) := by
  show StableHlo.after hostOps0 (W0 m ρ c) (Proc.devRef .tc main_arg0) = _
  after_results

theorem enter0_weights (c : Dev nD) :
    V1 m ρ c main_v1 = joined (m ((c : Thread nD τ).loc main_arg5)) (m ((c : Thread nD τ).loc main_arg6)) := by
  show StableHlo.after hostOps0 (W0 m ρ c) (Proc.devRef .tc main_v1) = _
  after_results
  rfl

/-! ## Leaving the first region -/

/-- The two halves of the product of the features by the joined weights. -/
def leftHalf (c : Dev nD) : (⟨S100000x64, .f32⟩ : BufTy).Contents (Elt Ideal) :=
  leftOf (m ((c : Thread nD τ).loc main_arg0)) (joined (m ((c : Thread nD τ).loc main_arg5)) (m ((c : Thread nD τ).loc main_arg6)))
def rightHalf (c : Dev nD) : (⟨S100000x64, .f32⟩ : BufTy).Contents (Elt Ideal) :=
  rightOf (m ((c : Thread nD τ).loc main_arg0)) (joined (m ((c : Thread nD τ).loc main_arg5)) (m ((c : Thread nD τ).loc main_arg6)))

theorem leave0_left (c : Dev nD) : W2 m ρ c (Proc.devRef .tc main_v2_0) = leftHalf m c := by
  refine (W2_arr m ρ c 2).trans ((leftArray (V1 m ρ) c).trans ?_)
  rw [enter0_features, enter0_weights]
  rfl

theorem leave0_right (c : Dev nD) : W2 m ρ c (Proc.devRef .tc main_v2_1) = rightHalf m c := by
  refine (W2_arr m ρ c 3).trans ((rightArray (V1 m ρ) c).trans ?_)
  rw [enter0_features, enter0_weights]
  rfl

/-- A buffer that is neither an array of the first region nor written before it is as launched. -/
theorem leave0_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
theorem leave0_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results
theorem leave0_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results
theorem leave0_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results
theorem leave0_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

/-! ## Entering the second region -/

/-- The aggregated messages: the edge sum of the left half. -/
def messages (c : Dev nD) : (⟨S100000x64, .f32⟩ : BufTy).Contents (Elt Ideal) :=
  edgeSum (leftHalf m c) (m ((c : Thread nD τ).loc main_arg1)) (m ((c : Thread nD τ).loc main_arg2)) (m ((c : Thread nD τ).loc main_arg3))

theorem between_messages (c : Dev nD) : W3 m ρ c (Proc.devRef .tc main_v15) = messages m c := by
  show StableHlo.after hostOps1 (W2 m ρ c) (Proc.devRef .tc main_v15) = _
  after_results_simp
  rw [leave0_left, leave0_arg1, leave0_arg2, leave0_arg3]
  rfl

theorem enter1_mean (c : Dev nD) :
    V3 m ρ c main_v16 = shapeCast S50000x128 (messages m c) shapeCasts_S100000x64_S50000x128 := by
  show StableHlo.after hostOps1 (W2 m ρ c) (Proc.devRef .tc main_v16) = _
  after_results_simp
  rw [leave0_left, leave0_arg1, leave0_arg2, leave0_arg3]
  rfl

theorem enter1_lin (c : Dev nD) :
    V3 m ρ c main_v17 = shapeCast S50000x128 (rightHalf m c) shapeCasts_S100000x64_S50000x128 := by
  show StableHlo.after hostOps1 (W2 m ρ c) (Proc.devRef .tc main_v17) = _
  after_results
  rw [leave0_right]
  rfl

theorem enter1_noise (c : Dev nD) :
    V3 m ρ c main_v18 = shapeCast S50000x128 (m ((c : Thread nD τ).loc main_arg4)) shapeCasts_S100000x64_S50000x128 := by
  show StableHlo.after hostOps1 (W2 m ρ c) (Proc.devRef .tc main_v18) = _
  after_results
  rw [leave0_arg4]
  rfl

theorem enter1_bias (c : Dev nD) : V3 m ρ c main_v20 = doubledRow (m ((c : Thread nD τ).loc main_arg7)) := by
  show StableHlo.after hostOps1 (W2 m ρ c) (Proc.devRef .tc main_v20) = _
  after_results
  rw [leave0_arg7]
  rfl

/-! ## The results -/

/-- The first result is the aggregated messages. -/
theorem result_messages (c : Dev nD) : W5 m ρ c (Proc.devRef .tc main_v15) = messages m c := by
  have h5 : W5 m ρ c (Proc.devRef .tc main_v15) = W4 m ρ c (Proc.devRef .tc main_v15) := by
    show StableHlo.after hostOps2 (W4 m ρ c) (Proc.devRef .tc main_v15) = _
    after_results
  exact h5.trans ((W4_of_ne m ρ c main_v15 (by decide)).trans (between_messages m ρ c))

/-- The second result is the standard deviations, computed on the row-paired view and re-laid. -/
theorem result_sdev (c : Dev nD) :
    W5 m ρ c (Proc.devRef .tc main_v22)
      = shapeCast S100000x64 (sdevPaired (shapeCast S50000x128 (rightHalf m c) shapeCasts_S100000x64_S50000x128)
          (doubledRow (m ((c : Thread nD τ).loc main_arg7)))) shapeCasts_S50000x128_S100000x64 := by
  have h5 : W5 m ρ c (Proc.devRef .tc main_v22)
      = shapeCast S100000x64 (W4 m ρ c (Proc.devRef .tc main_v21_0)) shapeCasts_S50000x128_S100000x64 := by
    show StableHlo.after hostOps2 (W4 m ρ c) (Proc.devRef .tc main_v22) = _
    after_results
    rfl
  rw [h5, show W4 m ρ c (Proc.devRef .tc main_v21_0) = _ from (W4_arr m ρ c 4).trans (sdevArray (V3 m ρ) c),
    enter1_lin, enter1_bias]

/-- The third result is the samples, computed on the row-paired view and re-laid. -/
theorem result_sample (c : Dev nD) :
    W5 m ρ c (Proc.devRef .tc main_v23)
      = shapeCast S100000x64 (samplePaired (shapeCast S50000x128 (messages m c) shapeCasts_S100000x64_S50000x128)
          (shapeCast S50000x128 (rightHalf m c) shapeCasts_S100000x64_S50000x128)
          (shapeCast S50000x128 (m ((c : Thread nD τ).loc main_arg4)) shapeCasts_S100000x64_S50000x128)
          (doubledRow (m ((c : Thread nD τ).loc main_arg7)))) shapeCasts_S50000x128_S100000x64 := by
  have h5 : W5 m ρ c (Proc.devRef .tc main_v23)
      = shapeCast S100000x64 (W4 m ρ c (Proc.devRef .tc main_v21_1)) shapeCasts_S50000x128_S100000x64 := by
    show StableHlo.after hostOps2 (W4 m ρ c) (Proc.devRef .tc main_v23) = _
    after_results
    rfl
  rw [h5, show W4 m ρ c (Proc.devRef .tc main_v21_1) = _ from (W4_arr m ρ c 5).trans (sampleArray (V3 m ρ) c),
    enter1_mean, enter1_lin, enter1_noise, enter1_bias]

end Cert.KernelIdeal.Encoder

end
-- ==== Proof.Relayout.lean ====
/-
  The row-paired view and back.

  The pointwise region works on the arrays re-laid as 50000 rows of 128: entry `(r, c)` of the paired view is
  entry `(2r + c / 64, c % 64)` of the original, the row-major position being the same.  Its results are re-laid
  back to 100000 rows of 64.  Re-laying an array there and back is the identity, a pointwise expression commutes
  with re-laying, and column `c` of the doubled bias row is entry `c % 64` of the bias, which for the paired
  position of `(p, q)` is `q`.  So the two results are, entry by entry,

    sdev[p, q] = sqrt (exp (L[p, q] + b[q]) + ε)          and          Q[p, q] + sdev[p, q] · Z[p, q].
-/
import proofs.«130356_j88038239633789_2_alg».proof.Proof.Boundary
import Idealize.ShloMosaic.Lib.ValueLayout

noncomputable section

namespace Cert.KernelIdeal.Encoder

open Cert.KernelIdeal Cert.KernelIdeal.Gen Idealize.ShloMosaic Idealize.ShloMosaic.ValueIdx

/-- The standard deviations from the linear branch and the bias, entry by entry. -/
def sdevOf (L : (⟨S100000x64, .f32⟩ : BufTy).Contents (Elt Ideal)) (b : (⟨S64, .f32⟩ : BufTy).Contents (Elt Ideal)) :
    (⟨S100000x64, .f32⟩ : BufTy).Contents (Elt Ideal) := fun j => sdev (L j) (b (ix1 (j 1)))

/-- The samples: mean plus standard deviation times noise, entry by entry. -/
def sampleOf (Q L Z : (⟨S100000x64, .f32⟩ : BufTy).Contents (Elt Ideal)) (b : (⟨S64, .f32⟩ : BufTy).Contents (Elt Ideal)) :
    (⟨S100000x64, .f32⟩ : BufTy).Contents (Elt Ideal) := fun j => Q j + sdev (L j) (b (ix1 (j 1))) * Z j

/-- The paired position of `(p, q)`. -/
abbrev paired (j : S100000x64.Idx) : S50000x128.Idx := Shape.reshapeEquiv shapeCasts_S50000x128_S100000x64 j

/-- The paired position's column, modulo 64, is the original column: `128·r + c = 64·p + q` with `q < 64`. -/
theorem paired_col (j : S100000x64.Idx) : ((paired j) 1).val % 64 = (j 1).val := by
  have h := Shape.rowMajor_reshapeEquiv (s := S50000x128) (s' := S100000x64) shapeCasts_S50000x128_S100000x64 j
  rw [Shape.rowMajor_val_two, Shape.rowMajor_val_two] at h
  have h' : ((paired j) 0).val * 128 + ((paired j) 1).val = (j 0).val * 64 + (j 1).val := h
  have h1 : (j 1).val < 64 := idx2_lt1 j
  omega

/-- Column `c` of the doubled bias row is entry `c % 64` of the bias. -/
theorem doubledRow_apply (b : (⟨S64, .f32⟩ : BufTy).Contents (Elt Ideal)) (c : Fin 128) :
    doubledRow b (ix2 (0 : Fin 1) c) = b (ix1 (⟨c.val % 64, Nat.mod_lt _ (by decide)⟩ : Fin 64)) := by
  unfold doubledRow
  rw [shapeCast_a_1a_apply]
  exact concatenate_replicate_apply (t := S128) (s₁ := S64) (0 : Fin 1) 2 b concatenates_S64_S64_S128_d0 rfl (ix1 c)
    (ix1 (⟨c.val % 64, Nat.mod_lt _ (by decide)⟩ : Fin 64)) rfl (fun a ha => absurd (Subsingleton.elim _ _) ha)

/-- The doubled bias row at the paired position's column is the bias at the original column. -/
theorem doubledRow_paired (b : (⟨S64, .f32⟩ : BufTy).Contents (Elt Ideal)) (j : S100000x64.Idx) :
    doubledRow b (ix2 (0 : Fin 1) ((paired j) 1)) = b (ix1 (j 1)) := by
  exact (doubledRow_apply b ((paired j) 1)).trans (congrArg b (congrArg ix1 (Fin.ext (paired_col j))))

/-- An array re-laid as pairs of rows, read at the paired position, is the array at the original position. -/
theorem relaid_paired (L : (⟨S100000x64, .f32⟩ : BufTy).Contents (Elt Ideal)) (j : S100000x64.Idx) :
    shapeCast S50000x128 L shapeCasts_S100000x64_S50000x128 (paired j) = L j :=
  congrFun (shapeCast_shapeCast L shapeCasts_S100000x64_S50000x128 shapeCasts_S50000x128_S100000x64) j

/-- The standard deviations computed on the paired view and re-laid back. -/
theorem unpair_sdev (L : (⟨S100000x64, .f32⟩ : BufTy).Contents (Elt Ideal)) (b : (⟨S64, .f32⟩ : BufTy).Contents (Elt Ideal)) :
    shapeCast S100000x64 (sdevPaired (shapeCast S50000x128 L shapeCasts_S100000x64_S50000x128) (doubledRow b))
      shapeCasts_S50000x128_S100000x64 = sdevOf L b := by
  funext j
  show sdev (shapeCast S50000x128 L shapeCasts_S100000x64_S50000x128 (paired j)) (doubledRow b (ix2 (0 : Fin 1) ((paired j) 1)))
    = sdev (L j) (b (ix1 (j 1)))
  rw [relaid_paired, doubledRow_paired]

/-- The samples computed on the paired view and re-laid back. -/
theorem unpair_sample (Q L Z : (⟨S100000x64, .f32⟩ : BufTy).Contents (Elt Ideal)) (b : (⟨S64, .f32⟩ : BufTy).Contents (Elt Ideal)) :
    shapeCast S100000x64 (samplePaired (shapeCast S50000x128 Q shapeCasts_S100000x64_S50000x128)
        (shapeCast S50000x128 L shapeCasts_S100000x64_S50000x128) (shapeCast S50000x128 Z shapeCasts_S100000x64_S50000x128) (doubledRow b))
      shapeCasts_S50000x128_S100000x64 = sampleOf Q L Z b := by
  funext j
  show shapeCast S50000x128 Q shapeCasts_S100000x64_S50000x128 (paired j)
      + sdev (shapeCast S50000x128 L shapeCasts_S100000x64_S50000x128 (paired j)) (doubledRow b (ix2 (0 : Fin 1) ((paired j) 1)))
        * shapeCast S50000x128 Z shapeCasts_S100000x64_S50000x128 (paired j)
    = Q j + sdev (L j) (b (ix1 (j 1))) * Z j
  rw [relaid_paired, relaid_paired, relaid_paired, doubledRow_paired]

end Cert.KernelIdeal.Encoder

end
-- ==== Proof.Halves.lean ====
/-
  The two halves of the product by the joined weights are the two products.

  The joined weights have the aggregation weights `g` in columns 0–63 and the transposed encoder weights `eᵀ` in
  columns 64–127.  So column `q` of the joined array is column `q` of `g`, column `64 + q` is column `q` of `eᵀ`,
  and the left and right halves of `X · [g | eᵀ]` are `X · g` and `X · eᵀ`, entry by entry the same sums over `k`.
-/
import proofs.«130356_j88038239633789_2_alg».proof.Proof.Boundary
import proofs.«130356_j88038239633789_2_alg».proof.Proof.LibPlainDot

noncomputable section

namespace Cert.KernelIdeal.Encoder

open Cert.KernelIdeal Cert.KernelIdeal.Gen Idealize.ShloMosaic Idealize.ShloMosaic.ValueIdx Cert.Lib.PlainDot

/-- Column `q < 64` of the joined weights is column `q` of the aggregation weights. -/
theorem joined_left (g : (⟨S512x64, .f32⟩ : BufTy).Contents (Elt Ideal)) (e : (⟨S64x512, .f32⟩ : BufTy).Contents (Elt Ideal))
    (k : Fin 512) (q : Fin 64) :
    joined g e (ix2 k (⟨q.val, by have := q.isLt; omega⟩ : Fin 128)) = g (ix2 k q) := by
  unfold joined
  exact concatenate_pair_apply_left (t := S512x128) (s₁ := S512x64) (s₂ := S512x64) (1 : Fin 2) g _
    concatenates_S512x64_S512x64_S512x128_d1 (ix2 k (⟨q.val, by have := q.isLt; omega⟩ : Fin 128)) rfl (ix2 k q)
    (fun b => by match b with | ⟨0, _⟩ => rfl | ⟨1, _⟩ => rfl)

/-- Column `64 + q` of the joined weights is column `q` of the transposed encoder weights. -/
theorem joined_right (g : (⟨S512x64, .f32⟩ : BufTy).Contents (Elt Ideal)) (e : (⟨S64x512, .f32⟩ : BufTy).Contents (Elt Ideal))
    (k : Fin 512) (q : Fin 64) :
    joined g e (ix2 k (⟨64 + q.val, by have := q.isLt; omega⟩ : Fin 128))
      = transpose S512x64 [1, 0] e transposes_S64x512_S512x64_1_0 (ix2 k q) := by
  unfold joined
  exact concatenate_pair_apply_right (t := S512x128) (s₁ := S512x64) (s₂ := S512x64) (1 : Fin 2) g _
    concatenates_S512x64_S512x64_S512x128_d1 (ix2 k (⟨64 + q.val, by have := q.isLt; omega⟩ : Fin 128)) rfl rfl (ix2 k q)
    (fun b hb => by
      match b with
      | ⟨0, _⟩ => rfl
      | ⟨1, _⟩ => exact absurd rfl hb)
    (by show q.val + 64 = 64 + q.val; omega)

/-- The left half of the product by the joined weights is the product by the aggregation weights. -/
theorem leftOf_joined (X : (⟨S100000x512, .f32⟩ : BufTy).Contents (Elt Ideal)) (g : (⟨S512x64, .f32⟩ : BufTy).Contents (Elt Ideal))
    (e : (⟨S64x512, .f32⟩ : BufTy).Contents (Elt Ideal)) :
    leftOf X (joined g e) = rowsByCols (M := 100000) (K := 512) (N := 64) X g := by
  funext j
  show leftAt X (joined g e) (j 0) (j 1) = ∑ k : Fin 512, X (ix2 (j 0) k) * g (ix2 k (j 1))
  unfold leftAt
  exact Finset.sum_congr rfl fun k _ => congrArg (fun y => X (ix2 (j 0) k) * y) (joined_left g e k (j 1))

/-- The right half is the product by the transposed encoder weights. -/
theorem rightOf_joined (X : (⟨S100000x512, .f32⟩ : BufTy).Contents (Elt Ideal)) (g : (⟨S512x64, .f32⟩ : BufTy).Contents (Elt Ideal))
    (e : (⟨S64x512, .f32⟩ : BufTy).Contents (Elt Ideal)) :
    rightOf X (joined g e)
      = rowsByCols (M := 100000) (K := 512) (N := 64) X (transpose S512x64 [1, 0] e transposes_S64x512_S512x64_1_0) := by
  funext j
  show rightAt X (joined g e) (j 0) (j 1)
    = ∑ k : Fin 512, X (ix2 (j 0) k) * transpose S512x64 [1, 0] e transposes_S64x512_S512x64_1_0 (ix2 k (j 1))
  unfold rightAt
  exact Finset.sum_congr rfl fun k _ => congrArg (fun y => X (ix2 (j 0) k) * y) (joined_right g e k (j 1))

end Cert.KernelIdeal.Encoder

end
-- ==== Proof.KernelValue.lean ====
/-
  The idealized kernel's three results as functions of its arguments.

  With `X` the features, `g` the aggregation weights, `e` the encoder weights, `b` the bias and `Z` the noise:

    messages = edgeSum (X · g)                    (the aggregation over the edge list of the rows of `X · g`)
    sdev     = sqrt (exp (X · eᵀ + b) + ε)        entry by entry, `b` along the columns
    sample   = messages + sdev · Z                entry by entry.

  The first region's two outputs are the halves of `X · [g | eᵀ]`, that is `X · g` and `X · eᵀ`; the host's
  edge sum is applied to the first; the second region computes the other two on the row-paired view, and re-laying
  back gives the entry-by-entry expressions.
-/
import proofs.«130356_j88038239633789_2_alg».proof.Proof.KernelRun
import proofs.«130356_j88038239633789_2_alg».proof.Proof.Boundary
import proofs.«130356_j88038239633789_2_alg».proof.Proof.Relayout
import proofs.«130356_j88038239633789_2_alg».proof.Proof.Halves

noncomputable section

namespace Cert.KernelIdeal.Encoder

open Cert.KernelIdeal Cert.KernelIdeal.Gen Idealize.ShloMosaic Idealize.ShloMosaic.TcCoe Idealize.SL.Sem
open Idealize.ShloMosaic.ValueIdx Cert.Lib.PlainDot

variable (m : (ℓ : Loc nD τ sig) → Buf (Elt Ideal) ℓ) (ρ : Dev nD → PrngReg)

/-- `X · g` of the launch contents. -/
def support (c : Dev nD) : (⟨S100000x64, .f32⟩ : BufTy).Contents (Elt Ideal) :=
  rowsByCols (M := 100000) (K := 512) (N := 64) (m ((c : Thread nD τ).loc main_arg0)) (m ((c : Thread nD τ).loc main_arg5))

/-- `X · eᵀ` of the launch contents. -/
def linear (c : Dev nD) : (⟨S100000x64, .f32⟩ : BufTy).Contents (Elt Ideal) :=
  rowsByCols (M := 100000) (K := 512) (N := 64) (m ((c : Thread nD τ).loc main_arg0))
    (transpose S512x64 [1, 0] (m ((c : Thread nD τ).loc main_arg6)) transposes_S64x512_S512x64_1_0)

/-- The aggregated messages of the launch contents. -/
def aggregated (c : Dev nD) : (⟨S100000x64, .f32⟩ : BufTy).Contents (Elt Ideal) :=
  edgeSum (support m c) (m ((c : Thread nD τ).loc main_arg1)) (m ((c : Thread nD τ).loc main_arg2)) (m ((c : Thread nD τ).loc main_arg3))

theorem leftHalf_eq (c : Dev nD) : leftHalf m c = support m c := leftOf_joined _ _ _
theorem rightHalf_eq (c : Dev nD) : rightHalf m c = linear m c := rightOf_joined _ _ _

theorem messages_eq (c : Dev nD) : messages m c = aggregated m c := by
  unfold messages aggregated
  rw [leftHalf_eq]

theorem value_messages (c : Dev nD) : W5 m ρ c (Proc.devRef .tc main_v15) = aggregated m c :=
  (result_messages m ρ c).trans (messages_eq m c)

theorem value_sdev (c : Dev nD) :
    W5 m ρ c (Proc.devRef .tc main_v22) = sdevOf (linear m c) (m ((c : Thread nD τ).loc main_arg7)) := by
  rw [result_sdev, unpair_sdev, rightHalf_eq]

theorem value_sample (c : Dev nD) :
    W5 m ρ c (Proc.devRef .tc main_v23)
      = sampleOf (aggregated m c) (linear m c) (m ((c : Thread nD τ).loc main_arg4)) (m ((c : Thread nD τ).loc main_arg7)) := by
  rw [result_sample, unpair_sample, rightHalf_eq, messages_eq]

/-- THE RUN: every weakly fair execution of the idealized kernel terminates with its results at these functions of
    the launch contents and its arguments unchanged. -/
theorem run : θ_run defs (onTc (τ := τ) (main (F := Ideal))) ⟨m, fun _ => 0, ρ⟩ (fun r => ∀ c : Dev nD,
      r.2.mem ((c.tc : Thread nD τ).loc main_v15) = aggregated m c
      ∧ r.2.mem ((c.tc : Thread nD τ).loc main_v22) = sdevOf (linear m c) (m ((c.tc : Thread nD τ).loc main_arg7))
      ∧ r.2.mem ((c.tc : Thread nD τ).loc main_v23)
          = sampleOf (aggregated m c) (linear m c) (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c).1.trans (value_messages m ρ c), (h c).2.1.trans (value_sdev m ρ c), (h c).2.2.1.trans (value_sample m ρ c), (h c).2.2.2⟩)
    (Cert.KernelIdeal.Whole.run m ρ)

end Cert.KernelIdeal.Encoder

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.Reference.lean ====
/-
  The reference's three results are the same functions of the arguments.

  The reference computes `X · g` and `X · eᵀ` by two whole matrix products, applies the same aggregation over the
  edge list to the first, and forms `sqrt (exp (X · eᵀ + b) + ε)` and `messages + sdev · Z` directly on the
  100000 × 64 arrays, the bias spread along the columns and ε spread from a scalar.  A whole matrix product on the
  extended reals is the array of sums `∑ k, l[p, k] · r[k, q]`; the host's exponential and square root are the
  kernel's; so entry by entry these are the kernel's expressions.
-/
import proofs.«130356_j88038239633789_2_alg».proof.Proof.Gen.ReferenceIdeal.Run
import proofs.«130356_j88038239633789_2_alg».proof.Proof.Gen.ReferenceIdeal.Read
import proofs.«130356_j88038239633789_2_alg».proof.Proof.KernelValue
import proofs.«130356_j88038239633789_2_alg».proof.Proof.LibPlainDot
import proofs.«130356_j88038239633789_2_alg».proof.Proof.LibBcastChain

noncomputable section

namespace Cert.ReferenceIdeal.Encoder

open Cert.ReferenceIdeal Cert.ReferenceIdeal.Gen Idealize.ShloMosaic Idealize.ShloMosaic.ValueIdx
open Cert.Lib.PlainDot Cert.Lib.BcastChain

/-- The reference's product by the aggregation weights. -/
theorem support_eq (x0 : (⟨S100000x512, .f32⟩ : BufTy).Contents (Elt Ideal)) (x5 : (⟨S512x64, .f32⟩ : BufTy).Contents (Elt Ideal)) :
    Host.dotGeneral (F := Ideal) (φ₁ := .f32) (φ₂ := .f32) dot_S100000x512_S512x64_S100000x64_1_0_0_1_n_n none x0 x5
      = rowsByCols (M := 100000) (K := 512) (N := 64) x0 x5 :=
  dotGeneral_eq (M := 100000) (K := 512) (N := 64) (φ₁ := .f32) (φ₂ := .f32) dot_S100000x512_S512x64_S100000x64_1_0_0_1_n_n rfl none _ x0 x5

/-- The reference's product by the transposed encoder weights. -/
theorem linear_eq (x0 : (⟨S100000x512, .f32⟩ : BufTy).Contents (Elt Ideal)) (x6 : (⟨S64x512, .f32⟩ : BufTy).Contents (Elt Ideal)) :
    Host.dotGeneral (F := Ideal) (φ₁ := .f32) (φ₂ := .f32) dot_S100000x512_S512x64_S100000x64_1_0_0_1_n_n none x0 (transpose S512x64 [1, 0] x6 transposes_S64x512_S512x64_1_0)
      = rowsByCols (M := 100000) (K := 512) (N := 64) x0 (transpose S512x64 [1, 0] x6 transposes_S64x512_S512x64_1_0) :=
  dotGeneral_eq (M := 100000) (K := 512) (N := 64) (φ₁ := .f32) (φ₂ := .f32) dot_S100000x512_S512x64_S100000x64_1_0_0_1_n_n rfl none _ x0 _

/-- The reference's first result is the edge sum of `X · g`. -/
theorem messages_eq (x0 : (⟨S100000x512, .f32⟩ : BufTy).Contents (Elt Ideal)) (x1 x2 : (⟨S1600000, .i32⟩ : BufTy).Contents (Elt Ideal))
    (x3 : (⟨S1600000, .f32⟩ : BufTy).Contents (Elt Ideal)) (x5 : (⟨S512x64, .f32⟩ : BufTy).Contents (Elt Ideal)) :
    Read.val_main_v13 (F := Ideal) x0 x1 x2 x3 x5
      = Cert.KernelIdeal.Encoder.edgeSum (rowsByCols (M := 100000) (K := 512) (N := 64) x0 x5) x1 x2 x3 := by
  rw [← Read.val_main_v13_eq, support_eq]
  rfl

/-- The reference's second result is the standard deviations. -/
theorem sdev_eq (x0 : (⟨S100000x512, .f32⟩ : BufTy).Contents (Elt Ideal)) (x6 : (⟨S64x512, .f32⟩ : BufTy).Contents (Elt Ideal))
    (x7 : (⟨S64, .f32⟩ : BufTy).Contents (Elt Ideal)) :
    Read.val_main_v22 (F := Ideal) x0 x6 x7
      = Cert.KernelIdeal.Encoder.sdevOf
          (rowsByCols (M := 100000) (K := 512) (N := 64) x0 (transpose S512x64 [1, 0] x6 transposes_S64x512_S512x64_1_0)) x7 := by
  rw [← Read.val_main_v22_eq, linear_eq]
  funext j
  obtain ⟨p, q, rfl⟩ : ∃ (p : Fin 100000) (q : Fin 64), j = ix2 p q := ⟨j 0, j 1, eq_ix2 j⟩
  show Ideal.sqrt (Ideal.exp (rowsByCols (M := 100000) (K := 512) (N := 64) x0 (transpose S512x64 [1, 0] x6 transposes_S64x512_S512x64_1_0) (ix2 p q)
        + broadcastInDim S100000x64 ![0, 1] bcast_S1x64_S100000x64_0_1 (broadcastInDim S1x64 ![1] bcast_S64_S1x64_1 x7) (ix2 p q))
      + broadcastInDim S100000x64 ![] bcast_S_S100000x64 (constant (F := Ideal) S_ .f32 0x38D1B717#32) (ix2 p q))
    = Cert.KernelIdeal.Encoder.sdev
        (rowsByCols (M := 100000) (K := 512) (N := 64) x0 (transpose S512x64 [1, 0] x6 transposes_S64x512_S512x64_1_0) (ix2 p q)) (x7 (ix1 q))
  rw [overRows_apply, overAll_apply]
  rfl

/-- The samples at an index: mean plus standard deviation times noise. -/
theorem sampleOf_apply (Q L Z : (⟨S100000x64, .f32⟩ : BufTy).Contents (Elt Ideal)) (b : (⟨S64, .f32⟩ : BufTy).Contents (Elt Ideal))
    (j : S100000x64.Idx) :
    Cert.KernelIdeal.Encoder.sampleOf Q L Z b j = Q j + Cert.KernelIdeal.Encoder.sdevOf L b j * Z j := rfl

/-- The reference's third result is the samples. -/
theorem sample_eq (x0 : (⟨S100000x512, .f32⟩ : BufTy).Contents (Elt Ideal)) (x1 x2 : (⟨S1600000, .i32⟩ : BufTy).Contents (Elt Ideal))
    (x3 : (⟨S1600000, .f32⟩ : BufTy).Contents (Elt Ideal)) (x4 : (⟨S100000x64, .f32⟩ : BufTy).Contents (Elt Ideal))
    (x5 : (⟨S512x64, .f32⟩ : BufTy).Contents (Elt Ideal)) (x6 : (⟨S64x512, .f32⟩ : BufTy).Contents (Elt Ideal))
    (x7 : (⟨S64, .f32⟩ : BufTy).Contents (Elt Ideal)) :
    Read.val_main_v24 (F := Ideal) x0 x1 x2 x3 x4 x5 x6 x7
      = Cert.KernelIdeal.Encoder.sampleOf
          (Cert.KernelIdeal.Encoder.edgeSum (rowsByCols (M := 100000) (K := 512) (N := 64) x0 x5) x1 x2 x3)
          (rowsByCols (M := 100000) (K := 512) (N := 64) x0 (transpose S512x64 [1, 0] x6 transposes_S64x512_S512x64_1_0)) x4 x7 := by
  funext j
  rw [Read.val_main_v24_apply, Read.val_main_v23_apply, messages_eq, sdev_eq, sampleOf_apply, Ideal.addf_def, Ideal.mulf_def]

end Cert.ReferenceIdeal.Encoder

end
-- ==== Proof.lean ====
/-
  A graph-convolution encoder with a reparameterised sample: the kernel against its reference, on the extended reals.

  From features `X` (100000 × 512), an edge list (source, destination, weight), noise `Z`, aggregation weights `g`
  (512 × 64), encoder weights `e` (64 × 512) and a bias `b`, both programs return

    messages = the sum, over the edges into each node, of the edge's weight times row `source` of `X · g`,
    sdev     = sqrt (exp (X · eᵀ + b) + ε),          sample = messages + sdev · Z.

  The kernel forms `X · [g | eᵀ]` in one pass over row blocks of `X` and stores the two halves; it aggregates on
  the host exactly as the reference does; and it computes `sdev` and `sample` block by block on the arrays re-laid
  as 50000 rows of 128.  On the extended reals the halves of the joined product are the two products term by term,
  the aggregation is one function applied to equal arrays, and re-laying commutes with the entry-by-entry
  expressions — no law is used that could fail at an infinity, so the precondition is not needed for the values.
  The kernel's idealisation rewrote nothing (its roundings to bfloat16 feed a product and are the identity here).
-/
import proofs.«130356_j88038239633789_2_alg».proof.Defs
import proofs.«130356_j88038239633789_2_alg».proof.Proof.Gen.Kernel
import proofs.«130356_j88038239633789_2_alg».proof.Proof.Gen.Kernel.Skeleton
import proofs.«130356_j88038239633789_2_alg».proof.Proof.Gen.Kernel.Launch
import proofs.«130356_j88038239633789_2_alg».proof.Proof.Gen.Kernel.Points
import proofs.«130356_j88038239633789_2_alg».proof.Proof.Gen.Kernel.Frame
import proofs.«130356_j88038239633789_2_alg».proof.Proof.Gen.KernelIdeal
import proofs.«130356_j88038239633789_2_alg».proof.Proof.Gen.KernelIdeal.Skeleton
import proofs.«130356_j88038239633789_2_alg».proof.Proof.Gen.KernelIdeal.Launch
import proofs.«130356_j88038239633789_2_alg».proof.Proof.Gen.KernelIdeal.Points
import proofs.«130356_j88038239633789_2_alg».proof.Proof.Gen.KernelIdeal.Frame
import proofs.«130356_j88038239633789_2_alg».proof.Proof.Gen.ReferenceIdeal
import proofs.«130356_j88038239633789_2_alg».proof.Proof.Gen.ReferenceIdeal.Run
import proofs.«130356_j88038239633789_2_alg».proof.Proof.Gen.ReferenceIdeal.Read
import proofs.«130356_j88038239633789_2_alg».proof.Proof.Gen.Pre_finite_inputs
import proofs.«130356_j88038239633789_2_alg».proof.Proof.KernelValue
import proofs.«130356_j88038239633789_2_alg».proof.Proof.Reference
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments as launched: its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealisation rewrote no operation. -/
theorem preserves : Cert.preserves_Kernel_KernelIdeal := trivial

/-- From memories agreeing on the arguments both programs end with the three results at the same functions of
    the arguments: the aggregated messages, the standard deviations, the samples. -/
theorem algebraic : Cert.algebraic_KernelIdeal_ReferenceIdeal := by
  intro m ρ m' ρ' _ hagree
  refine ⟨_, _, _, Cert.KernelIdeal.Encoder.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7⟩ := hagree c
    rw [Cert.ReferenceIdeal.Read.val_main_v13_eq, Cert.ReferenceIdeal.Encoder.messages_eq, a0, a1, a2, a3, a5]
    rfl
  · obtain ⟨a0, a1, a2, a3, a4, a5, a6, a7⟩ := hagree c
    rw [Cert.ReferenceIdeal.Read.val_main_v22_eq, Cert.ReferenceIdeal.Encoder.sdev_eq, a0, a6, a7]
    rfl
  · obtain ⟨a0, a1, a2, a3, a4, a5, a6, a7⟩ := hagree c
    rw [Cert.ReferenceIdeal.Read.val_main_v24_eq, Cert.ReferenceIdeal.Encoder.sample_eq, a0, a1, a2, a3, a4, a5, a6, a7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
